-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x128 : Shape := ⟨2, ![1024, 128]⟩
abbrev S4096x128 : Shape := ⟨2, ![4096, 128]⟩
abbrev S1024x1 : Shape := ⟨2, ![1024, 1]⟩
abbrev S1x4096 : Shape := ⟨2, ![1, 4096]⟩
abbrev S1024x4096 : Shape := ⟨2, ![1024, 4096]⟩
abbrev S256x128 : Shape := ⟨2, ![256, 128]⟩
abbrev S1024x256 : Shape := ⟨2, ![1024, 256]⟩
abbrev S1x256 : Shape := ⟨2, ![1, 256]⟩

abbrev nBuf : Space → Nat
  | .hbm => 17
  | .vmem => 10
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x128, .f32⟩
  | .hbm, ⟨10, _⟩ => ⟨S_, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S1x8192, .f32⟩
  | .hbm, ⟨16, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S4096x128, .f32⟩
  | .local _ .vmem, ⟨4, _⟩ => ⟨S1024x1, .f32⟩
  | .local _ .vmem, ⟨5, _⟩ => ⟨S1024x1, .f32⟩
  | .local _ .vmem, ⟨6, _⟩ => ⟨S1x4096, .f32⟩
  | .local _ .vmem, ⟨7, _⟩ => ⟨S1x4096, .f32⟩
  | .local _ .vmem, ⟨8, _⟩ => ⟨S1024x4096, .f32⟩
  | .local _ .vmem, ⟨9, _⟩ => ⟨S1024x4096, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32 : BitVec 32 := 0#32
  let c16_i32 : BitVec 32 := 16#32
  let v6 : BitVec 32 := Scalar.addi c0_i32 c16_i32
  let c1_i32 : BitVec 32 := 1#32
  ⟨c0_i32, v6, c1_i32⟩
def k0_mult1 (k0_t1 : Fin k0_t1_loop.trips) : BitVec 32 :=
  let c0_i32_5 : BitVec 32 := 0#32
  let c0_i32 : BitVec 32 := 0#32
  let c1_i32 : BitVec 32 := 1#32
  let arg7 : BitVec 32 := Scf.iv c0_i32 c1_i32 k0_t1
  let c1_i32_4 : BitVec 32 := 1#32
  let v7 : BitVec 32 := Scalar.muli arg7 c1_i32_4
  let v8 : BitVec 32 := Scalar.addi c0_i32_5 v7
  let c256_i32 : BitVec 32 := 256#32
  let v9 : BitVec 32 := Scalar.muli v8 c256_i32
  v9
def k0_off1 (k0_t1 : Fin k0_t1_loop.trips) : Fin 2 → Nat :=
  let c0_i32_5 : BitVec 32 := 0#32
  let c0_i32 : BitVec 32 := 0#32
  let c1_i32 : BitVec 32 := 1#32
  let arg7 : BitVec 32 := Scf.iv c0_i32 c1_i32 k0_t1
  let c1_i32_4 : BitVec 32 := 1#32
  let v7 : BitVec 32 := Scalar.muli arg7 c1_i32_4
  let v8 : BitVec 32 := Scalar.addi c0_i32_5 v7
  let c256_i32 : BitVec 32 := 256#32
  let v9 : BitVec 32 := Scalar.muli v8 c256_i32
  let v10 : BitVec 32 := v9
  let v11 : Index := Scalar.indexCast v10
  let c0_6 : Index := 0#32
  ![v11.toNat, 0]
def k0_off2 (k0_t1 : Fin k0_t1_loop.trips) : Fin 2 → Nat :=
  let c0_8 : Index := 0#32
  let c0_i32_5 : BitVec 32 := 0#32
  let c0_i32 : BitVec 32 := 0#32
  let c1_i32 : BitVec 32 := 1#32
  let arg7 : BitVec 32 := Scf.iv c0_i32 c1_i32 k0_t1
  let c1_i32_4 : BitVec 32 := 1#32
  let v7 : BitVec 32 := Scalar.muli arg7 c1_i32_4
  let v8 : BitVec 32 := Scalar.addi c0_i32_5 v7
  let c256_i32 : BitVec 32 := 256#32
  let v9 : BitVec 32 := Scalar.muli v8 c256_i32
  let v10 : BitVec 32 := v9
  let v15 : Index := Scalar.indexCast v10
  ![0, v15.toNat]
def k0_off3 (k0_t1 : Fin k0_t1_loop.trips) : Fin 2 → Nat :=
  let c0_9 : Index := 0#32
  let c0_i32_5 : BitVec 32 := 0#32
  let c0_i32 : BitVec 32 := 0#32
  let c1_i32 : BitVec 32 := 1#32
  let arg7 : BitVec 32 := Scf.iv c0_i32 c1_i32 k0_t1
  let c1_i32_4 : BitVec 32 := 1#32
  let v7 : BitVec 32 := Scalar.muli arg7 c1_i32_4
  let v8 : BitVec 32 := Scalar.addi c0_i32_5 v7
  let c256_i32 : BitVec 32 := 256#32
  let v9 : BitVec 32 := Scalar.muli v8 c256_i32
  let v10 : BitVec 32 := v9
  let v23 : Index := Scalar.indexCast v10
  ![0, v23.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S_S8192 : S_.BroadcastsInDim S8192 (![] : Fin 0 → Fin S8192.rank)
  bcast_S8192_S1x8192_1 : S8192.BroadcastsInDim S1x8192 (![1] : Fin 1 → Fin S1x8192.rank)
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  h_S256x128 : 0 < S256x128.numel
  h_S1x256 : 0 < S1x256.numel
  shapeCasts_S1x256_S1x256 : S1x256.ShapeCasts S1x256
  broadcasts_S1024x1_S1024x256 : S1024x1.Broadcasts S1024x256
  broadcasts_S1x256_S1024x256 : S1x256.Broadcasts S1024x256
  h_S1024x256 : 0 < S1024x256.numel
  dot_S1024x128_S256x128_S1024x256_1_1_0_0_n_n_wf : DotDims.WF S1024x128 S256x128 S1024x256 [1] [1] [0] [0] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S256x128.size a ≤ S4096x128.size a
  k0_off2_inb : ∀ k0_t1 : Fin k0_t1_loop.trips, ∀ a, (k0_off2 k0_t1) a + S1x256.size a ≤ S1x4096.size a
  k0_off3_inb : ∀ k0_t1 : Fin k0_t1_loop.trips, ∀ a, (k0_off3 k0_t1) a + S1024x256.size a ≤ S1024x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S8192x128.size a
  hwx0_1 : ∀ i : grid0.Coords, EltTy.bits .f32 = 32 ∨ (Rect.block (s := S8192x128) S4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x8192.size a
  hwx0_3 : ∀ i : grid0.Coords, EltTy.bits .f32 = 32 ∨ (Rect.block (s := S1x8192) S1x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S8192x8192.size a
  hwx0_4 : ∀ i : grid0.Coords, EltTy.bits .f32 = 32 ∨ (Rect.block (s := S8192x8192) S1024x4096.size (cc0_transform_4 i) (hinb0_4 i)).WholeWords (EltTy.packing .f32)

variable [Facts₀]

def dot_S1024x128_S256x128_S1024x256_1_1_0_0_n_n : DotDims S1024x128 S256x128 S1024x256 where
  lhsContracting := [1]
  rhsContracting := [1]
  lhsNonContracting := [0]
  rhsNonContracting := [0]
  lhsBatch := []
  rhsBatch := []
  wf := dot_S1024x128_S256x128_S1024x256_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.GramSpec.lean ====
/-
  The mathematics of the Gaussian (RBF) Gram matrix, free of any program.

  For two families of row vectors the entry at (i, j) is  exp(-‖aᵢ - bⱼ‖²).  Two arrangements of it are compared:
    * the expanded one:   exp( Σₖ (aᵢₖ · 2) · bⱼₖ  -  ‖aᵢ‖² · 1  -  ‖bⱼ‖² · 1 ),
    * the textbook one:   exp( (-1) · ( (‖aᵢ‖² + ‖bⱼ‖²) - 2 · Σₖ aᵢₖ · bⱼₖ ) ),
  where a squared norm is  0 + Σₖ uₖ · uₖ.  On the extended reals the two agree as soon as every coordinate is a
  real number: then every sum is real, the factor 2 moves out of the sum, and the sign distributes.  (With an
  infinite coordinate the expanded form can meet ∞ - ∞ in another place than the textbook one, so finiteness is used.)
  The float literals stay as the words the programs spell; their values 0, 1, 2, -1 are read off here, once.
-/
import Idealize.ShloMosaic.PureOps.Ideal
import Idealize.ShloMosaic.PureOps.Ideal.Laws
import Idealize.ShloMosaic.Lib.ValueIdx

noncomputable section

open scoped BigOperators

namespace Cert.Gram

open Idealize.ShloMosaic

/-! ## The four literals -/

/-- The word of `2.0` denotes the real 2. -/
theorem two_val : Ideal.ofBits .f32 0x40000000#32 = ((2 : ℝ) : EReal) := by
  simp [Ideal.ofBits, Ideal.ieee, -EReal.coe_mul]; norm_num

/-- The word of `1.0` denotes the real 1. -/
theorem one_val : Ideal.ofBits .f32 0x3F800000#32 = ((1 : ℝ) : EReal) := by
  simp [Ideal.ofBits, Ideal.ieee, -EReal.coe_mul]; norm_num

/-- The word of `-1.0` denotes the real -1. -/
theorem negone_val : Ideal.ofBits .f32 0xBF800000#32 = ((-1 : ℝ) : EReal) := by
  simp [Ideal.ofBits, Ideal.ieee, -EReal.coe_mul]; norm_num

/-- The word of `+0.0` denotes the real 0. -/
theorem zero_val : Ideal.ofBits .f32 0x00000000#32 = ((0 : ℝ) : EReal) := by
  rw [Ideal.ofBits_zero_f32]; rfl

/-! ## Squared norms and the two arrangements of an entry -/

variable {ι : Type} [Fintype ι]

/-- The squared norm of a row as both programs compute it: the zero word plus the sum of the squares. -/
def sqNorm (u : ι → EReal) : EReal := Ideal.ofBits .f32 0x00000000#32 + ∑ k, u k * u k

/-- The expanded arrangement: the doubled row against the other row, less the two squared norms (each times one). -/
def expandedEntry (u v : ι → EReal) : EReal :=
  Ideal.exp ((∑ k, (u k * Ideal.ofBits .f32 0x40000000#32) * v k)
    - sqNorm u * Ideal.ofBits .f32 0x3F800000#32 - sqNorm v * Ideal.ofBits .f32 0x3F800000#32)

/-- The textbook arrangement: minus the squared distance, the distance as norms less twice the inner product. -/
def textbookEntry (u v : ι → EReal) : EReal :=
  Ideal.exp (Ideal.ofBits .f32 0xBF800000#32
    * ((sqNorm u + sqNorm v) - Ideal.ofBits .f32 0x40000000#32 * ∑ k, u k * v k))

/-- Row `r` of a matrix given index by index. -/
abbrev row {n d : ℕ} (x : (⟨2, ![n, d]⟩ : Shape).Idx → EReal) (r : Fin n) : Fin d → EReal := fun k => x (ValueIdx.ix2 r k)

/-- A finite sum of reals, read in the extended reals, is the sum of the readings. -/
theorem coe_sum (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- THE LAW: on rows of real numbers the expanded arrangement is the textbook one. -/
theorem expandedEntry_eq_textbookEntry (u v : ι → EReal) (hu : ∀ k, ∃ r : ℝ, u k = (r : EReal))
    (hv : ∀ k, ∃ r : ℝ, v k = (r : EReal)) : expandedEntry u v = textbookEntry u v := by
  choose a ha using hu
  choose b hb using hv
  obtain rfl : u = fun k => (a k : EReal) := funext ha
  obtain rfl : v = fun k => (b k : EReal) := funext hb
  unfold expandedEntry textbookEntry sqNorm
  rw [two_val, one_val, negone_val, zero_val]
  simp only [← EReal.coe_mul, ← coe_sum, ← EReal.coe_add, ← EReal.coe_sub]
  refine congrArg (fun r : ℝ => Ideal.exp (r : EReal)) ?_
  have h2 : ∑ k, a k * 2 * b k = 2 * ∑ k, a k * b k := by
    rw [Finset.mul_sum]; exact Finset.sum_congr rfl fun k _ => by ring
  rw [h2]; ring

end Cert.Gram

end
-- ==== Proof.GramReference.lean ====
/-
  The reference program read at an index: its result at (i, j) is the textbook arrangement of the Gaussian Gram entry of
  row i of the first argument and row j of the second — the squared norms are the two host sums, the inner product is
  the host matrix product against the transposed second argument, and the broadcasts only carry a row's norm along the
  other axis.
-/
import proofs.«148330_j65481071409271_2_alg».proof.Proof.Gen.ReferenceIdeal.Read
import proofs.«148330_j65481071409271_2_alg».proof.Proof.GramSpec

noncomputable section

open scoped BigOperators

namespace Cert.Gram.Reference

open Cert.ReferenceIdeal Cert.ReferenceIdeal.Gen Cert.ReferenceIdeal.Read
open Idealize.ShloMosaic Idealize.ShloMosaic.ValueIdx

theorem reference_apply (x0 x1 : (⟨S8192x128, .f32⟩ : BufTy).Contents (Elt Ideal)) (i : S8192x8192.Idx) :
    val_main_v16 (F := Ideal) x0 x1 i = textbookEntry (row x0 (i 0)) (row x1 (i 1)) := by
  rw [val_main_v16_apply, val_main_v15_apply, val_main_v14_apply, val_main_cst_2_apply, val_main_v13_apply,
    val_main_v8_apply, val_main_v6_apply, val_main_v2_apply, val_main_v1_apply, val_main_v7_apply, val_main_v5_apply,
    val_main_v4_apply, val_main_v12_apply, val_main_v11_apply, val_main_cst_1_apply, val_main_v10_apply]
  have e1 : ∀ k : Fin 128, idx_main_v1 (idx_main_v2 (idx_main_v6 i)) k = ix2 (i 0) k := fun k =>
    funext fun a => Fin.ext (by match a with | ⟨0, _⟩ => rfl | ⟨1, _⟩ => rfl)
  have e2 : ∀ k : Fin 128, idx_main_v4 (idx_main_v5 (idx_main_v7 i)) k = ix2 (i 1) k := fun k =>
    funext fun a => Fin.ext (by match a with | ⟨0, _⟩ => rfl | ⟨1, _⟩ => rfl)
  have e3 : ∀ k : Fin 128, lidx_main_v10 i k = ix2 (i 0) k := fun k =>
    funext fun a => Fin.ext (by match a with | ⟨0, _⟩ => rfl | ⟨1, _⟩ => rfl)
  have e4 : ∀ k : Fin 128, idx_main_v9 (ridx_main_v10 i k) = ix2 (i 1) k := fun k =>
    funext fun a => Fin.ext (by match a with | ⟨0, _⟩ => rfl | ⟨1, _⟩ => rfl)
  simp only [val_main_v0_apply, val_main_v3_apply, val_main_v9_apply, val_main_cst_apply, val_main_cst_0_apply,
    e1, e2, e3, e4, Ideal.hostUnary_exp_def, Ideal.mulf_def, Ideal.subf_def, Ideal.addf_def, Ideal.ofBits_def]
  rfl

end Cert.Gram.Reference

end
-- ==== Proof.GramPayload.lean ====
/-
  The kernel body's arithmetic read at one element.

  One trip of the body computes, from a [1024, 128] block `x0` of the first argument, the [1024, 1] column `x4` of its
  rows' squared norms, a [256, 128] chunk `v12` of the second argument's block and the [1, 256] chunk `v16` of that
  block's squared norms, the [1024, 256] tile whose entry (r, q) is
      exp( Σₖ (x0[r,k] · 2) · v12[q,k]  -  x4[r,0]  -  v16[0,q] ):
  the matrix product contracts the two trailing axes into a zero accumulator (so it is the plain sum over k), the
  narrowing to bf16 is the identity on extended reals, the column and the row are broadcast along the other axis.
-/
import proofs.«148330_j65481071409271_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Gram.Payload

open Cert.KernelIdeal Cert.KernelIdeal.Gen
open Idealize.ShloMosaic Idealize.ShloMosaic.ValueIdx

/-- A [a, 1] column broadcast to [a, b] reads, at (p, c), the column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The matrix product of the body at (r, q): the sum over the shared trailing axis -/

theorem lhs0 (i : S1024x256.Idx) (q : dot_S1024x128_S256x128_S1024x256_1_1_0_0_n_n.contr.Idx) : (dot_S1024x128_S256x128_S1024x256_1_1_0_0_n_n.lhsIdx i q 0).val = (i 0).val := by
  unfold DotDims.lhsIdx
  rw [dif_neg (show ¬(0 : Fin S1024x128.rank) ∈ dot_S1024x128_S256x128_S1024x256_1_1_0_0_n_n.lhsBatch by decide),
    dif_pos (show (0 : Fin S1024x128.rank) ∈ dot_S1024x128_S256x128_S1024x256_1_1_0_0_n_n.lhsNonContracting by decide)]
  rfl
theorem lhs1 (i : S1024x256.Idx) (q : dot_S1024x128_S256x128_S1024x256_1_1_0_0_n_n.contr.Idx) : (dot_S1024x128_S256x128_S1024x256_1_1_0_0_n_n.lhsIdx i q 1).val = (q ⟨0, by decide⟩).val :=
  dot_S1024x128_S256x128_S1024x256_1_1_0_0_n_n.lhsIdx_val_of_single rfl i q
theorem rhs0 (i : S1024x256.Idx) (q : dot_S1024x128_S256x128_S1024x256_1_1_0_0_n_n.contr.Idx) : (dot_S1024x128_S256x128_S1024x256_1_1_0_0_n_n.rhsIdx i q 0).val = (i 1).val := by
  unfold DotDims.rhsIdx
  rw [dif_neg (show ¬(0 : Fin S256x128.rank) ∈ dot_S1024x128_S256x128_S1024x256_1_1_0_0_n_n.rhsBatch by decide),
    dif_pos (show (0 : Fin S256x128.rank) ∈ dot_S1024x128_S256x128_S1024x256_1_1_0_0_n_n.rhsNonContracting by decide)]
  rfl
theorem rhs1 (i : S1024x256.Idx) (q : dot_S1024x128_S256x128_S1024x256_1_1_0_0_n_n.contr.Idx) : (dot_S1024x128_S256x128_S1024x256_1_1_0_0_n_n.rhsIdx i q 1).val = (q ⟨0, by decide⟩).val :=
  dot_S1024x128_S256x128_S1024x256_1_1_0_0_n_n.rhsIdx_val_of_single rfl i q

/-- The body's matrix product into the zero accumulator, at (r, q): row r of the left operand against row q of the
    right one. -/
theorem matmul_apply_rq (lhs : FVec Ideal S1024x128 .bf16) (rhs : FVec Ideal S256x128 .bf16) (r : Fin 1024) (q : Fin 256) :
    FloatOps.matmul dot_S1024x128_S256x128_S1024x256_1_1_0_0_n_n none lhs rhs (constant S1024x256 .f32 0x00000000#32) (ix2 r q)
      = ∑ k : Fin 128, lhs (ix2 r k) * rhs (ix2 q k) := by
  rw [Ideal.matmul_constant_zero_apply, ← Equiv.sum_comp (contrEquiv1 dot_S1024x128_S256x128_S1024x256_1_1_0_0_n_n 128 rfl rfl).symm]
  refine Finset.sum_congr rfl fun k _ => ?_
  have hk := contrEquiv1_symm_val dot_S1024x128_S256x128_S1024x256_1_1_0_0_n_n 128 rfl rfl k
  have el : dot_S1024x128_S256x128_S1024x256_1_1_0_0_n_n.lhsIdx (ix2 r q) ((contrEquiv1 dot_S1024x128_S256x128_S1024x256_1_1_0_0_n_n 128 rfl rfl).symm k) = ix2 r k :=
    funext fun a => Fin.ext (by
      match a with
      | ⟨0, _⟩ => exact lhs0 _ _
      | ⟨1, _⟩ => exact (lhs1 _ _).trans hk)
  have er : dot_S1024x128_S256x128_S1024x256_1_1_0_0_n_n.rhsIdx (ix2 r q) ((contrEquiv1 dot_S1024x128_S256x128_S1024x256_1_1_0_0_n_n 128 rfl rfl).symm k) = ix2 q k :=
    funext fun a => Fin.ext (by
      match a with
      | ⟨0, _⟩ => exact rhs0 _ _
      | ⟨1, _⟩ => exact (rhs1 _ _).trans hk)
  rw [el, er]

/-! ## The payload at (r, q) -/

theorem payload_apply (x0 : Vec Ideal S1024x128 .f32) (x4 : Vec Ideal S1024x1 .f32) (v12 : Vec Ideal S256x128 .f32)
    (v16 : Vec Ideal S1x256 .f32) (r : Fin 1024) (q : Fin 256) :
    k0_pay1 (F := Ideal) x0 x4 v12 v16 (ix2 r q)
      = Ideal.exp ((∑ k : Fin 128, (x0 (ix2 r k) * Ideal.ofBits .f32 0x40000000#32) * v12 (ix2 q k))
          - x4 (ix2 r (0 : Fin 1)) - v16 (ix2 (0 : Fin 1) q)) := by
  unfold k0_pay1
  show Ideal.exp (FloatOps.matmul (F := Ideal) dot_S1024x128_S256x128_S1024x256_1_1_0_0_n_n none
        (truncf (F := Ideal) .bf16 (mulf (F := Ideal) x0 (broadcast S1024x128 (Scalar.ofBits (F := Ideal) .f32 0x40000000#32))) bitsLt_bf16_f32)
        (truncf (F := Ideal) .bf16 v12 bitsLt_bf16_f32) (constant (F := Ideal) S1024x256 .f32 0x00000000#32) (ix2 r q)
      - broadcastTo S1024x256 (shapeCast S1024x1 x4 shapeCasts_S1024x1_S1024x1) broadcasts_S1024x1_S1024x256 (ix2 r q)
      - broadcastTo S1024x256 (shapeCast S1x256 v16 shapeCasts_S1x256_S1x256) broadcasts_S1x256_S1024x256 (ix2 r q)) = _
  rw [matmul_apply_rq, broadcastTo_a1_ab_apply, broadcastTo_1b_ab_apply, shapeCast_self, shapeCast_self]
  rfl

end Cert.Gram.Payload

end
-- ==== Proof.GramBlock.lean ====
/-
  What one grid point leaves in the output block.

  The body fills its [1024, 4096] output block in sixteen trips; trip k stores, at columns 256·k … 256·k + 255, the
  tile computed from the whole [1024, 128] left block, the left norms, and rows 256·k … of the right block and of the
  right norms.  Every stored tile is a restriction of ONE function of the block index (r, j):
      exp( Σₖ (x0[r,k] · 2) · x1[j,k]  -  x2[r,0]  -  x3[0,j] ),
  so the block ends holding that function: each trip's one piece agrees with it (the tile's entry (r, q) sits at column
  256·k + q, and its loads read rows 256·k + q), the pieces of all the trips agree by induction over the trips, and
  pieces that all restrict one function, covering the block, leave that function.
-/
import proofs.«148330_j65481071409271_2_alg».proof.Proof.Gen.KernelIdeal.Frame
import proofs.«148330_j65481071409271_2_alg».proof.Proof.GramPayload
import Idealize.ShloMosaic.Lib.WholeRead

noncomputable section

open scoped BigOperators

namespace Cert.Gram.Block

open Cert.KernelIdeal Cert.KernelIdeal.Gen
open Idealize.ShloMosaic Idealize.ShloMosaic.TcCoe Idealize.ShloMosaic.ValueIdx Idealize.SL.Sem

/-- Entry (r, j) of the block, from the left block `x0`, the right block `x1` and their norms `x2`, `x3`. -/
def entry (x0 : Vec Ideal S1024x128 .f32) (x1 : Vec Ideal S4096x128 .f32) (x2 : Vec Ideal S1024x1 .f32) (x3 : Vec Ideal S1x4096 .f32) (r : Fin 1024) (j : Fin 4096) : EReal :=
  Ideal.exp ((∑ kk : Fin 128, (x0 (ix2 r kk) * Ideal.ofBits .f32 0x40000000#32) * x1 (ix2 j kk))
    - x2 (ix2 r (0 : Fin 1)) - x3 (ix2 (0 : Fin 1) j))

/-- The block as one function of its index. -/
def blockFn (x0 : Vec Ideal S1024x128 .f32) (x1 : Vec Ideal S4096x128 .f32) (x2 : Vec Ideal S1024x1 .f32) (x3 : Vec Ideal S1x4096 .f32) : S1024x4096.Idx → EReal := fun y => entry x0 x1 x2 x3 (y 0) (y 1)

/-- The loop runs at most sixteen trips. -/
theorem trip_lt (k : Fin k0_t1_loop.trips) : k.val < 16 := Nat.lt_of_lt_of_le k.isLt k0_t1_abs.2.1

/-- Column 256·k + q of the block: where entry q of trip k's tile sits. -/
def col (k : Fin k0_t1_loop.trips) (q : Fin 256) : Fin 4096 := ⟨256 * k.val + q.val, by have := trip_lt k; have := q.isLt; omega⟩

/-! ## Where a trip's rectangles sit -/

theorem store_emb (k : Fin k0_t1_loop.trips) (r : Fin 1024) (q : Fin 256) :
    (Rect.unit (s := S1024x4096) (k0_off3 k) S1024x256.size (k0_off3_inb k)).emb (ix2 r q) = ix2 r (col k q) :=
  funext fun a => Fin.ext (by
    match a with
    | ⟨0, _⟩ => show (k0_off3 k) 0 + 1 * r.val = r.val; rw [k0_off3_eq k]; show 0 + 1 * r.val = r.val; omega
    | ⟨1, _⟩ => show (k0_off3 k) 1 + 1 * q.val = 256 * k.val + q.val; rw [k0_off3_eq k]; show 256 * k.val + 1 * q.val = _; omega)

theorem right_idx (k : Fin k0_t1_loop.trips) (q : Fin 256) (kk : Fin 128) :
    (Rect.unit (s := S4096x128) (k0_off1 k) S256x128.size (k0_off1_inb k)).toLoadRect.idx (ix2 q kk) = ix2 (col k q) kk :=
  funext fun a => Fin.ext (by
    match a with
    | ⟨0, _⟩ => show (k0_off1 k) 0 + 1 * q.val = 256 * k.val + q.val; rw [k0_off1_eq k]; show 256 * k.val + 1 * q.val = _; omega
    | ⟨1, _⟩ => show (k0_off1 k) 1 + 1 * kk.val = kk.val; rw [k0_off1_eq k]; show 0 + 1 * kk.val = kk.val; omega)

theorem rnorm_idx (k : Fin k0_t1_loop.trips) (q : Fin 256) :
    (Rect.unit (s := S1x4096) (k0_off2 k) S1x256.size (k0_off2_inb k)).toLoadRect.idx (ix2 (0 : Fin 1) q) = ix2 (0 : Fin 1) (col k q) :=
  funext fun a => Fin.ext (by
    match a with
    | ⟨0, _⟩ => show (k0_off2 k) 0 + 1 * 0 = 0; rw [k0_off2_eq k]; rfl
    | ⟨1, _⟩ => show (k0_off2 k) 1 + 1 * q.val = 256 * k.val + q.val; rw [k0_off2_eq k]; show 256 * k.val + 1 * q.val = _; omega)

theorem left_idx (r : Fin 1024) (kk : Fin 128) :
    (Rect.unit (s := S1024x128) ![0, 0] S1024x128.size inb_S1024x128_S1024x128_0_0).toLoadRect.idx (ix2 r kk) = ix2 r kk :=
  funext fun a => Fin.ext (by
    match a with
    | ⟨0, _⟩ => show 0 + 1 * r.val = r.val; omega
    | ⟨1, _⟩ => show 0 + 1 * kk.val = kk.val; omega)

theorem lnorm_idx (r : Fin 1024) :
    (Rect.unit (s := S1024x1) ![0, 0] S1024x1.size inb_S1024x1_S1024x1_0_0).toLoadRect.idx (ix2 r (0 : Fin 1)) = ix2 r (0 : Fin 1) :=
  funext fun a => Fin.ext (by
    match a with
    | ⟨0, _⟩ => show 0 + 1 * r.val = r.val; omega
    | ⟨1, _⟩ => rfl)

/-! ## A trip's tile is the block function on its columns -/

/-- The left block and the left norms as the body loads them (whole-buffer loads of the staged contents). -/
abbrev ldLeft (a2 : Memref sig .tc .vmem S1024x128 .f32) (h2 : a2.IsWhole) (x0 : Vec Ideal S1024x128 .f32) : Vec Ideal S1024x128 .f32 :=
  View.readAt (Elt Ideal) a2.view (Rect.unit (s := S1024x128) ![0, 0] S1024x128.size inb_S1024x128_S1024x128_0_0).toLoadRect (h2.unread x0)
abbrev ldLnorm (a4 : Memref sig .tc .vmem S1024x1 .f32) (h4 : a4.IsWhole) (x2 : Vec Ideal S1024x1 .f32) : Vec Ideal S1024x1 .f32 :=
  View.readAt (Elt Ideal) a4.view (Rect.unit (s := S1024x1) ![0, 0] S1024x1.size inb_S1024x1_S1024x1_0_0).toLoadRect (h4.unread x2)

theorem tile_apply (a2 : Memref sig .tc .vmem S1024x128 .f32) (h2 : a2.IsWhole) (a3 : Memref sig .tc .vmem S4096x128 .f32) (h3 : a3.IsWhole) (a4 : Memref sig .tc .vmem S1024x1 .f32) (h4 : a4.IsWhole) (a5 : Memref sig .tc .vmem S1x4096 .f32) (h5 : a5.IsWhole)
    (x0 : Vec Ideal S1024x128 .f32) (x1 : Vec Ideal S4096x128 .f32) (x2 : Vec Ideal S1024x1 .f32) (x3 : Vec Ideal S1x4096 .f32) (k : Fin k0_t1_loop.trips) (r : Fin 1024) (q : Fin 256) :
    k0_pay1 (F := Ideal) (ldLeft a2 h2 x0) (ldLnorm a4 h4 x2)
        (View.readAt (Elt Ideal) a3.view (Rect.unit (s := S4096x128) (k0_off1 k) S256x128.size (k0_off1_inb k)).toLoadRect (h3.unread x1))
        (View.readAt (Elt Ideal) a5.view (Rect.unit (s := S1x4096) (k0_off2 k) S1x256.size (k0_off2_inb k)).toLoadRect (h5.unread x3))
        (ix2 r q)
      = entry x0 x1 x2 x3 r (col k q) := by
  refine (Payload.payload_apply _ _ _ _ r q).trans ?_
  unfold entry
  simp only [Memref.IsWhole.readAt_unread]
  rw [lnorm_idx, rnorm_idx]
  refine congrArg (fun s : EReal => Ideal.exp (s - x2 (ix2 r (0 : Fin 1)) - x3 (ix2 (0 : Fin 1) (col k q)))) ?_
  refine Finset.sum_congr rfl fun kk _ => ?_
  rw [left_idx, right_idx]

/-! ## The pieces of the run -/

/-- Trip k's pieces: ONE store, at the trip's columns, of the tile of the loads at the trip's rows. -/
theorem trip_pieces (𝒱 : Variants) (bd : Option 𝒱.V) (c : Dev nD) (i : grid0.Coords) (a2 : Memref sig .tc .vmem S1024x128 .f32) (h2 : a2.IsWhole) (a3 : Memref sig .tc .vmem S4096x128 .f32) (h3 : a3.IsWhole) (a4 : Memref sig .tc .vmem S1024x1 .f32) (h4 : a4.IsWhole) (a5 : Memref sig .tc .vmem S1x4096 .f32) (h5 : a5.IsWhole) (a6 : Memref sig .tc .vmem S1024x4096 .f32) (h6 : a6.IsWhole) (v0 : Vec Ideal S1024x128 .f32) (v4 : Vec Ideal S1024x1 .f32)
    (X3 : BufTy.Contents (Elt Ideal) a3.view.ty) (X5 : BufTy.Contents (Elt Ideal) a5.view.ty) (k : Fin k0_t1_loop.trips) :
    tripL_k0_t1 (F := Ideal) 𝒱 c bd i a2 h2 a3 h3 a4 h4 a5 h5 a6 h6 v0 v4 X3 X5 k
      = [⟨Rect.unit (s := S1024x4096) (k0_off3 k) S1024x256.size (k0_off3_inb k),
          k0_pay1 v0 v4 (View.readAt (Elt Ideal) a3.view (Rect.unit (s := S4096x128) (k0_off1 k) S256x128.size (k0_off1_inb k)).toLoadRect X3)
            (View.readAt (Elt Ideal) a5.view (Rect.unit (s := S1x4096) (k0_off2 k) S1x256.size (k0_off2_inb k)).toLoadRect X5)⟩] := by
  unfold tripL_k0_t1 trip_k0_t1
  rfl

/-- The whole run's pieces: those of all the trips, the body's two whole-buffer loads as their first operands. -/
theorem run_pieces (c : Dev nD) (i : grid0.Coords) (a2 : Memref sig .tc .vmem S1024x128 .f32) (h2 : a2.IsWhole) (a3 : Memref sig .tc .vmem S4096x128 .f32) (h3 : a3.IsWhole) (a4 : Memref sig .tc .vmem S1024x1 .f32) (h4 : a4.IsWhole) (a5 : Memref sig .tc .vmem S1x4096 .f32) (h5 : a5.IsWhole) (a6 : Memref sig .tc .vmem S1024x4096 .f32) (h6 : a6.IsWhole) (x0 : Vec Ideal S1024x128 .f32) (x1 : Vec Ideal S4096x128 .f32) (x2 : Vec Ideal S1024x1 .f32) (x3 : Vec Ideal S1x4096 .f32) :
    (kernelRun0_A (F := Ideal) c i a2 h2 a3 h3 a4 h4 a5 h5 a6 h6 x0 x1 x2 x3).1
      = pb_k0_t1 (F := Ideal) Variants.none c none i a2 h2 a3 h3 a4 h4 a5 h5 a6 h6 (ldLeft a2 h2 x0) (ldLnorm a4 h4 x2)
          (h3.unread x1) (h5.unread x3) k0_t1_loop.trips := by
  unfold kernelRun0_A
  rfl

/-- Trip k's piece restricts the block function. -/
theorem trip_agrees (c : Dev nD) (i : grid0.Coords) (a2 : Memref sig .tc .vmem S1024x128 .f32) (h2 : a2.IsWhole) (a3 : Memref sig .tc .vmem S4096x128 .f32) (h3 : a3.IsWhole) (a4 : Memref sig .tc .vmem S1024x1 .f32) (h4 : a4.IsWhole) (a5 : Memref sig .tc .vmem S1x4096 .f32) (h5 : a5.IsWhole) (a6 : Memref sig .tc .vmem S1024x4096 .f32) (h6 : a6.IsWhole) (x0 : Vec Ideal S1024x128 .f32) (x1 : Vec Ideal S4096x128 .f32) (x2 : Vec Ideal S1024x1 .f32) (x3 : Vec Ideal S1x4096 .f32) (k : Fin k0_t1_loop.trips) :
    ∀ p ∈ tripL_k0_t1 (F := Ideal) Variants.none c none i a2 h2 a3 h3 a4 h4 a5 h5 a6 h6 (ldLeft a2 h2 x0) (ldLnorm a4 h4 x2)
        (h3.unread x1) (h5.unread x3) k,
      ∀ x : p.1.shape.Idx, p.2 x = blockFn x0 x1 x2 x3 (p.1.emb x) := by
  intro p hp
  rw [trip_pieces] at hp
  obtain rfl := List.mem_singleton.mp hp
  intro x
  obtain ⟨r, q, rfl⟩ : ∃ (r : Fin 1024) (q : Fin 256), x = ix2 r q := ⟨x 0, x 1, eq_ix2 x⟩
  refine (tile_apply a2 h2 a3 h3 a4 h4 a5 h5 x0 x1 x2 x3 k r q).trans ?_
  show entry x0 x1 x2 x3 r (col k q) = blockFn x0 x1 x2 x3 ((Rect.unit (s := S1024x4096) (k0_off3 k) S1024x256.size (k0_off3_inb k)).emb (ix2 r q))
  rw [store_emb]
  rfl

/-- So do the pieces of the trips before any `n`, by induction over the trips. -/
theorem pieces_agree (c : Dev nD) (i : grid0.Coords) (a2 : Memref sig .tc .vmem S1024x128 .f32) (h2 : a2.IsWhole) (a3 : Memref sig .tc .vmem S4096x128 .f32) (h3 : a3.IsWhole) (a4 : Memref sig .tc .vmem S1024x1 .f32) (h4 : a4.IsWhole) (a5 : Memref sig .tc .vmem S1x4096 .f32) (h5 : a5.IsWhole) (a6 : Memref sig .tc .vmem S1024x4096 .f32) (h6 : a6.IsWhole) (x0 : Vec Ideal S1024x128 .f32) (x1 : Vec Ideal S4096x128 .f32) (x2 : Vec Ideal S1024x1 .f32) (x3 : Vec Ideal S1x4096 .f32) :
    ∀ n : ℕ, ∀ p ∈ pb_k0_t1 (F := Ideal) Variants.none c none i a2 h2 a3 h3 a4 h4 a5 h5 a6 h6 (ldLeft a2 h2 x0) (ldLnorm a4 h4 x2)
        (h3.unread x1) (h5.unread x3) n,
      ∀ x : p.1.shape.Idx, p.2 x = blockFn x0 x1 x2 x3 (p.1.emb x)
  | 0 => by
    intro p hp
    rw [pb_k0_t1.eq_1] at hp
    exact absurd hp List.not_mem_nil
  | n + 1 => by
    intro p hp
    rw [pb_k0_t1.eq_2] at hp
    unfold pb_k0_t1Step at hp
    split at hp
    · rcases List.mem_append.mp hp with h | h
      · exact trip_agrees c i a2 h2 a3 h3 a4 h4 a5 h5 a6 h6 x0 x1 x2 x3 ⟨n, ‹_›⟩ p h
      · exact pieces_agree c i a2 h2 a3 h3 a4 h4 a5 h5 a6 h6 x0 x1 x2 x3 n p h
    · exact pieces_agree c i a2 h2 a3 h3 a4 h4 a5 h5 a6 h6 x0 x1 x2 x3 n p hp

/-- WHAT A GRID POINT LEAVES in its output block: the block function of its four input blocks. -/
theorem out_block (c : Dev nD) (i : grid0.Coords) (a2 : Memref sig .tc .vmem S1024x128 .f32) (h2 : a2.IsWhole) (a3 : Memref sig .tc .vmem S4096x128 .f32) (h3 : a3.IsWhole) (a4 : Memref sig .tc .vmem S1024x1 .f32) (h4 : a4.IsWhole) (a5 : Memref sig .tc .vmem S1x4096 .f32) (h5 : a5.IsWhole) (a6 : Memref sig .tc .vmem S1024x4096 .f32) (h6 : a6.IsWhole) (x0 : Vec Ideal S1024x128 .f32) (x1 : Vec Ideal S4096x128 .f32) (x2 : Vec Ideal S1024x1 .f32) (x3 : Vec Ideal S1x4096 .f32) :
    out0_A_4 (F := Ideal) c i a2 h2 a3 h3 a4 h4 a5 h5 a6 h6 x0 x1 x2 x3 = blockFn x0 x1 x2 x3 := by
  unfold out0_A_4
  rw [View.read_writes_eq_canon _ _ _ (cover0_A_4 c i a2 h2 a3 h3 a4 h4 a5 h5 a6 h6 x0 x1 x2 x3)]
  funext y
  refine View.canon_apply_of_pieces (blockFn x0 x1 x2 x3) _ ?_ y (cover0_A_4 c i a2 h2 a3 h3 a4 h4 a5 h5 a6 h6 x0 x1 x2 x3 y)
  rw [run_pieces]
  exact pieces_agree c i a2 h2 a3 h3 a4 h4 a5 h5 a6 h6 x0 x1 x2 x3 _

end Cert.Gram.Block

end
-- ==== Proof.GramHost.lean ====
/-
  The two norm arrays the kernel's program computes on the host before the grid runs.

  The [8192, 1] column staged for the left operand holds, at row r, the squared norm of row r of the first argument
  (the zero word plus the sum of the squares) times the word of 1.0; the [1, 8192] row staged for the right operand
  holds the same of the second argument at column j.  Each is read here at an index, from the host operations that
  write it: a row sum, a product with a broadcast constant, and a broadcast that only adds a unit axis.
-/
import proofs.«148330_j65481071409271_2_alg».proof.Proof.Gen.KernelIdeal.Frame
import proofs.«148330_j65481071409271_2_alg».proof.Proof.GramSpec
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.Gram.Host

open Cert.KernelIdeal Cert.KernelIdeal.Gen
open Idealize.ShloMosaic Idealize.ShloMosaic.TcCoe Idealize.ShloMosaic.ValueIdx Idealize.SL.Sem Idealize.ShloMosaic.StableHlo

/-- The host's sum over the trailing axis, from the zero word, at row r. -/
theorem reduce_rows (y0 : S8192x128.Idx → EReal) (r : Fin 8192) :
    Host.reduceAdd (F := Ideal) y0 (constant (F := Ideal) S_ .f32 0x00000000#32) reducesTo_S8192x128_S8192_d1 h_S_ (ix1 r)
      = Ideal.ofBits .f32 0x00000000#32 + ∑ kk : Fin 128, y0 (ix2 r kk) := by
  simp only [Host.reduceAdd, Ideal.hostReduceAdd_def]
  rw [Ideal.hostReduceAdd_single reducesTo_S8192x128_S8192_d1 (by decide)]
  refine congrArg (_ + ·) (Finset.sum_congr rfl fun k _ => ?_)
  exact congrArg y0 (funext fun a => Fin.ext (by match a with | ⟨0, _⟩ => rfl | ⟨1, _⟩ => rfl))

/-- The squared norms of the rows, as the host computes them. -/
def sqRows (A : FVec Ideal S8192x128 .f32) : FVec Ideal S8192 .f32 :=
  Host.reduceAdd (F := Ideal) (mulf A A) (constant (F := Ideal) S_ .f32 0x00000000#32) reducesTo_S8192x128_S8192_d1 h_S_

theorem sqRows_apply (A : FVec Ideal S8192x128 .f32) (r : Fin 8192) : sqRows A (ix1 r) = sqNorm (row A r) := by
  unfold sqRows sqNorm
  rw [reduce_rows]
  rfl

/-- The left operand's norm column. -/
def lnormArr (A : FVec Ideal S8192x128 .f32) : FVec Ideal S8192x1 .f32 :=
  mulf (broadcastInDim S8192x1 ![0] bcast_S8192_S8192x1_0 (sqRows A))
    (broadcastInDim S8192x1 ![] bcast_S_S8192x1 (constant (F := Ideal) S_ .f32 0x3F800000#32))

theorem lnormArr_apply (A : FVec Ideal S8192x128 .f32) (r : Fin 8192) :
    lnormArr A (ix2 r (0 : Fin 1)) = sqNorm (row A r) * Ideal.ofBits .f32 0x3F800000#32 := by
  show broadcastInDim S8192x1 ![0] bcast_S8192_S8192x1_0 (sqRows A) (ix2 r (0 : Fin 1))
      * broadcastInDim S8192x1 ![] bcast_S_S8192x1 (constant (F := Ideal) S_ .f32 0x3F800000#32) (ix2 r (0 : Fin 1)) = _
  rw [broadcastInDim_apply _ bcast_S8192_S8192x1_0 (sqRows A) (ix2 r (0 : Fin 1)) (ix1 r) (fun a => match a with
      | ⟨0, _⟩ => by show r.val = if (8192 : Nat) = 1 then 0 else r.val; rw [if_neg (by decide)]),
    broadcastInDim_apply _ bcast_S_S8192x1 (constant (F := Ideal) S_ .f32 0x3F800000#32) (ix2 r (0 : Fin 1)) ix0 (fun a => a.elim0),
    sqRows_apply]
  rfl

/-- The right operand's norm row. -/
def rnormArr (B : FVec Ideal S8192x128 .f32) : FVec Ideal S1x8192 .f32 :=
  broadcastInDim S1x8192 ![1] bcast_S8192_S1x8192_1
    (mulf (sqRows B) (broadcastInDim S8192 ![] bcast_S_S8192 (constant (F := Ideal) S_ .f32 0x3F800000#32)))

theorem rnormArr_apply (B : FVec Ideal S8192x128 .f32) (j : Fin 8192) :
    rnormArr B (ix2 (0 : Fin 1) j) = sqNorm (row B j) * Ideal.ofBits .f32 0x3F800000#32 := by
  unfold rnormArr
  rw [broadcastInDim_apply _ bcast_S8192_S1x8192_1 _ (ix2 (0 : Fin 1) j) (ix1 j) (fun a => match a with
      | ⟨0, _⟩ => by show j.val = if (8192 : Nat) = 1 then 0 else j.val; rw [if_neg (by decide)])]
  show sqRows B (ix1 j) * broadcastInDim S8192 ![] bcast_S_S8192 (constant (F := Ideal) S_ .f32 0x3F800000#32) (ix1 j) = _
  rw [broadcastInDim_apply _ bcast_S_S8192 (constant (F := Ideal) S_ .f32 0x3F800000#32) (ix1 j) ix0 (fun a => a.elim0), sqRows_apply]
  rfl

variable (m : (ℓ : Loc nD τ sig) → Buf (Elt Ideal) ℓ)

/-- What the grid finds in the left norm column: the host's term of the first argument. -/
theorem V_lnorm (c : Dev nD) :
    (V m c main_v4 : S8192x1.Idx → EReal) = lnormArr (m ((c : Thread nD τ).loc main_arg0)) := by
  dsimp only [Gen.V, Gen.hostOps0]
  after_results
  rfl

/-- What the grid finds in the right norm row: the host's term of the second argument. -/
theorem V_rnorm (c : Dev nD) :
    (V m c main_v9 : S1x8192.Idx → EReal) = rnormArr (m ((c : Thread nD τ).loc main_arg1)) := by
  dsimp only [Gen.V, Gen.hostOps0]
  after_results
  rfl

end Cert.Gram.Host

end
-- ==== Proof.GramKernel.lean ====
/-
  From the blocks to the array: what the kernel's program leaves in its result.

  The grid is 8 × 2; point (bi, bj) stages rows 1024·bi … of the first argument and of its norm column, rows 4096·bj …
  of the second argument and columns 4096·bj … of its norm row, and writes back the [1024, 4096] block (bi, bj) of the
  result.  Entry (r, q) of that block is the block function of the staged blocks, and read through the windows it is
  the expanded Gram entry of row 1024·bi + r of the first argument and row 4096·bj + q of the second — the staged
  norms being the host's squared norms of exactly those rows.  The sixteen blocks tile the [8192, 8192] result (index
  (i, j) lies in block (i / 1024, j / 4096)), so the result array ends holding the expanded entry everywhere.
-/
import proofs.«148330_j65481071409271_2_alg».proof.Proof.Gen.KernelIdeal.Value
import proofs.«148330_j65481071409271_2_alg».proof.Proof.GramBlock
import proofs.«148330_j65481071409271_2_alg».proof.Proof.GramHost

noncomputable section

open scoped BigOperators

namespace Cert.Gram.Kernel

open Cert.KernelIdeal Cert.KernelIdeal.Gen
open Idealize.ShloMosaic Idealize.ShloMosaic.TcCoe Idealize.ShloMosaic.ValueIdx Idealize.SL.Sem
open Idealize.ShloMosaic.Pipeline (Dat)

/-- The result array as one function of the two arguments: the expanded entry of row i against row j. -/
def gramArr (A B : FVec Ideal S8192x128 .f32) : S8192x8192.Idx → EReal :=
  fun i => expandedEntry (row A (i 0)) (row B (i 1))

variable (m : (ℓ : Loc nD τ sig) → Buf (Elt Ideal) ℓ) (ρ : Dev nD → PrngReg)

/-- The printed index maps, decided over the sixteen points: the left windows follow the output's row block, the
    right windows its column block, and the output's block indices stay inside the 8 × 2 grid of blocks. -/
theorem idx_facts : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ win0_4.index t (0 : Fin 2) ≤ 7 ∧ win0_4.index t (1 : Fin 2) ≤ 1 :=
  (by decide +kernel : ∀ t : Fin grid0.N, _)

/-- Every block of the result is some point's. -/
theorem idx_onto : ∀ (q0 : Fin 8) (q1 : Fin 2), ∃ t : Fin cfg0.N, win0_4.index t = ![q0.val, q1.val] :=
  (by decide +kernel : ∀ (q0 : Fin 8) (q1 : Fin 2), ∃ t : Fin grid0.N, win0_4.index t = ![q0.val, q1.val])

/-- WHAT POINT `t` WRITES BACK is block `t` of `gramArr` of the two arguments. -/
theorem flushed_eq (c : Dev nD) (t : Fin cfg0.N) :
    (dats m 0 c).flushed 4 t
      = ((cfg0.win 4).blk t).view.read (Elt Ideal) (gramArr (m ((c : Thread nD τ).loc main_arg0)) (m ((c : Thread nD τ).loc main_arg1))) := by
  refine (Cert.KernelIdeal.Value.flushed4_A m c t).trans ?_
  refine (congrArg ((cfg0.win 4).cut (grid0.coords t))
    (Block.out_block c (grid0.coords t) (ms0_0 t) (hs0_0 t) (ms0_1 t) (hs0_1 t) (ms0_2 t) (hs0_2 t) (ms0_3 t) (hs0_3 t)
      (ms0_4 t) (hs0_4 t) (iblk m c 0 t) (iblk m c 1 t) (iblk m c 2 t) (iblk m c 3 t))).trans ?_
  obtain ⟨e00, e01, e10, e11, e20, e21, e30, e31, b0, b1⟩ := idx_facts t
  funext j
  have hj0 : (j 0).val < 1024 := (j 0).isLt
  have hj1 : (j 1).val < 4096 := (j 1).isLt
  -- the global row and column of the block's entry `j`
  let gi : Fin 8192 := ⟨win0_4.index t (0 : Fin 2) * 1024 + (j 0).val, by omega⟩
  let gj : Fin 8192 := ⟨win0_4.index t (1 : Fin 2) * 4096 + (j 1).val, by omega⟩
  have hemb : ((cfg0.win 4).blk t).view.emb j = ix2 gi gj := by
    funext a; apply Fin.ext
    match a with
    | ⟨0, _⟩ => show win0_4.index t (0 : Fin 2) * 1024 + 1 * (j 0).val = win0_4.index t (0 : Fin 2) * 1024 + (j 0).val; omega
    | ⟨1, _⟩ => show win0_4.index t (1 : Fin 2) * 4096 + 1 * (j 1).val = win0_4.index t (1 : Fin 2) * 4096 + (j 1).val; omega
  have h0 : ∀ kk : Fin 128, iblk m c 0 t (ix2 (j 0) kk) = (m ((c : Thread nD τ).loc main_arg0)) (ix2 gi kk) := by
    intro kk
    show V m c main_arg0 (((cfg0.win 0).blk t).view.emb (ix2 (j 0) kk)) = _
    rw [V_main_arg0]
    refine congrArg _ (funext fun a => Fin.ext ?_)
    match a with
    | ⟨0, _⟩ => show win0_0.index t (0 : Fin 2) * 1024 + 1 * (j 0).val = win0_4.index t (0 : Fin 2) * 1024 + (j 0).val; omega
    | ⟨1, _⟩ => show win0_0.index t (1 : Fin 2) * 128 + 1 * kk.val = kk.val; omega
  have h1 : ∀ kk : Fin 128, iblk m c 1 t (ix2 (j 1) kk) = (m ((c : Thread nD τ).loc main_arg1)) (ix2 gj kk) := by
    intro kk
    show V m c main_arg1 (((cfg0.win 1).blk t).view.emb (ix2 (j 1) kk)) = _
    rw [V_main_arg1]
    refine congrArg _ (funext fun a => Fin.ext ?_)
    match a with
    | ⟨0, _⟩ => show win0_1.index t (0 : Fin 2) * 4096 + 1 * (j 1).val = win0_4.index t (1 : Fin 2) * 4096 + (j 1).val; omega
    | ⟨1, _⟩ => show win0_1.index t (1 : Fin 2) * 128 + 1 * kk.val = kk.val; omega
  have h2 : iblk m c 2 t (ix2 (j 0) (0 : Fin 1)) = sqNorm (row (m ((c : Thread nD τ).loc main_arg0)) gi) * Ideal.ofBits .f32 0x3F800000#32 := by
    show V m c main_v4 (((cfg0.win 2).blk t).view.emb (ix2 (j 0) (0 : Fin 1))) = _
    have e : ((cfg0.win 2).blk t).view.emb (ix2 (j 0) (0 : Fin 1)) = ix2 gi (0 : Fin 1) := by
      funext a; apply Fin.ext
      match a with
      | ⟨0, _⟩ => show win0_2.index t (0 : Fin 2) * 1024 + 1 * (j 0).val = win0_4.index t (0 : Fin 2) * 1024 + (j 0).val; omega
      | ⟨1, _⟩ => show win0_2.index t (1 : Fin 2) * 1 + 1 * 0 = 0; omega
    rw [e, Host.V_lnorm, Host.lnormArr_apply]
  have h3 : iblk m c 3 t (ix2 (0 : Fin 1) (j 1)) = sqNorm (row (m ((c : Thread nD τ).loc main_arg1)) gj) * Ideal.ofBits .f32 0x3F800000#32 := by
    show V m c main_v9 (((cfg0.win 3).blk t).view.emb (ix2 (0 : Fin 1) (j 1))) = _
    have e : ((cfg0.win 3).blk t).view.emb (ix2 (0 : Fin 1) (j 1)) = ix2 (0 : Fin 1) gj := by
      funext a; apply Fin.ext
      match a with
      | ⟨0, _⟩ => show win0_3.index t (0 : Fin 2) * 1 + 1 * 0 = 0; omega
      | ⟨1, _⟩ => show win0_3.index t (1 : Fin 2) * 4096 + 1 * (j 1).val = win0_4.index t (1 : Fin 2) * 4096 + (j 1).val; omega
    rw [e, Host.V_rnorm, Host.rnormArr_apply]
  show Block.entry (iblk m c 0 t) (iblk m c 1 t) (iblk m c 2 t) (iblk m c 3 t) (j 0) (j 1)
    = gramArr (m ((c : Thread nD τ).loc main_arg0)) (m ((c : Thread nD τ).loc main_arg1)) (((cfg0.win 4).blk t).view.emb j)
  rw [hemb]
  unfold Block.entry
  rw [h2, h3]
  simp only [h0, h1]
  rfl

/-- An index of the result is in point `t`'s block iff each coordinate is in the block's range on its axis. -/
theorem mem_blk (t : Fin cfg0.N) (i : S8192x8192.Idx) :
    i ∈ ((cfg0.win 4).blk t).view.set ↔ ∀ a : Fin 2, win0_4.index t a * S1024x4096.size a ≤ (i a).val
      ∧ (i a).val < win0_4.index t a * S1024x4096.size a + S1024x4096.size a := by
  show i ∈ ((View.whole main_v10).slice (win0_4.rect t)).set ↔ _
  rw [View.set_slice_whole, Rect.mem_set_unit]
  exact Iff.rfl

/-- The sixteen blocks tile the result: index (i, j) lies in block (i / 1024, j / 4096). -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := idx_onto ⟨(i 0).val / 1024, by omega⟩ ⟨(i 1).val / 4096, by omega⟩
  have q0 : win0_4.index t (0 : Fin 2) = (i 0).val / 1024 := congrFun ht 0
  have q1 : win0_4.index t (1 : Fin 2) = (i 1).val / 4096 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 4096 ≤ (i 1).val ∧ (i 1).val < win0_4.index t (1 : Fin 2) * 4096 + 4096; omega

/-- THE RESULT ARRAY after the run: the expanded Gram entry of the two arguments, everywhere. -/
theorem final (c : Dev nD) : (dats m 0 c).arrAt 4 cfg0.N = gramArr (m ((c : Thread nD τ).loc main_arg0)) (m ((c : Thread nD τ).loc main_arg1)) :=
  (dats m 0 c).arrAt_eq_of_cover 4 (gramArr (m ((c : Thread nD τ).loc main_arg0)) (m ((c : Thread nD τ).loc main_arg1))) (fun t _ => flushed_eq m c t) (cover)

/-- The kernel's run, read: the result at `gramArr` of the arguments, the arguments unchanged. -/
theorem run : θ_run defs (onTc (τ := τ) (main (F := Ideal))) ⟨m, fun _ => 0, ρ⟩ fun r => ∀ c : Dev nD,
      r.2.mem ((c : Thread nD τ).loc main_v10) = gramArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.Gram.Kernel

end
-- ==== Proof.GramFinite.lean ====
/-
  What the precondition gives: every entry of both arguments is a real number.

  The precondition is the conjunction of two "all entries have absolute value below +∞" tests.  Each conjunct is a
  reduction by `and` over the whole array that is 1, so the test is 1 at every entry; at an entry a, the test compares
  max(a, -a) with the word of +∞, which denotes ⊤; and an extended real whose absolute value is below ⊤ is neither ⊤
  nor ⊥, hence a real.
-/
import proofs.«148330_j65481071409271_2_alg».proof.Pre_finite_inputs
import Idealize.ShloMosaic.Lib.ReduceAll
import Idealize.ShloMosaic.Lib.Affine
import Idealize.ShloMosaic.Lib.Pipeline.Value
import Idealize.ShloMosaic.Lib.ValueIdx
import Idealize.ShloMosaic.PureOps.Ideal.Laws

noncomputable section

namespace Cert.Gram.Finite

open Cert.Pre_finite_inputs Cert.Pre_finite_inputs.Facts
open Idealize.ShloMosaic

instance : Subsingleton S_.Idx := ⟨fun _ _ => funext fun d => d.elim0⟩

/-- The word of +∞ denotes ⊤. -/
theorem inf_val : Ideal.ofBits .f32 0x7F800000#32 = ⊤ := by simp [Ideal.ofBits, Ideal.ieee]

/-- An extended real whose absolute value is below ⊤ is a real number. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

variable [Cert.Pre_finite_inputs.Facts]

/-- One "all finite" test that is 1 makes every entry a real. -/
theorem finite_of_test (A : FVec Ideal S8192x128 .f32) (i : S8192x128.Idx)
    (e : cmpf .olt (Host.absf A) (broadcastInDim S8192x128 ![] bcast_S_S8192x128 (constant (F := Ideal) S_ .f32 0x7F800000#32)) i = 1#1) :
    ∃ r : ℝ, A i = (r : EReal) := by
  have hb : broadcastInDim S8192x128 ![] bcast_S_S8192x128 (constant (F := Ideal) S_ .f32 0x7F800000#32) i = ⊤ :=
    (broadcastInDim_apply _ bcast_S_S8192x128 _ i ValueIdx.ix0 (fun a => a.elim0)).trans inf_val
  have e' : Ideal.cmp .olt (max (A i) (-(A i)))
      (broadcastInDim S8192x128 ![] bcast_S_S8192x128 (constant (F := Ideal) S_ .f32 0x7F800000#32) i) = 1#1 := e
  rw [hb] at e'
  exact real_of_abs_lt_top _ e'

/-- THE PRECONDITION READ: every entry of both arguments is a real number. -/
theorem all_real (A B : FVec Ideal S8192x128 .f32) (h : fn (F := Ideal) A B = fun _ => 1#1) :
    (∀ i, ∃ r : ℝ, A i = (r : EReal)) ∧ (∀ i, ∃ r : ℝ, B i = (r : EReal)) := by
  have h0 := congrFun h ValueIdx.ix0
  dsimp only [fn] at h0
  obtain ⟨hA, hB⟩ := IntOp.andi_eq_one.mp h0
  exact ⟨fun i => finite_of_test A i (Host.reduce_andi_all _ _ _ _ _ hA i),
    fun i => finite_of_test B i (Host.reduce_andi_all _ _ _ _ _ hB i)⟩

end Cert.Gram.Finite

end
-- ==== Proof.lean ====
/-
  The Gaussian (RBF) Gram matrix  exp(-‖aᵢ - bⱼ‖²)  of two [8192, 128] arrays: a tiled kernel against the textbook formula.

  The kernel's program computes the squared norms of the rows of both arguments on the host, then runs an 8 × 2 grid;
  each grid point fills a [1024, 4096] block of the result in sixteen column chunks, entry (i, j) being
      exp( Σₖ (aᵢₖ · 2) · bⱼₖ  -  ‖aᵢ‖² · 1  -  ‖bⱼ‖² · 1 )
  (the product taken on operands narrowed to bf16, which is the identity on extended reals).  The reference computes
      exp( (-1) · ( (‖aᵢ‖² + ‖bⱼ‖²) - 2 · Σₖ aᵢₖ · bⱼₖ ) ).
  On the extended reals the two are equal wherever every entry of the arguments is a real number, which is what the
  precondition says: the factor 2 moves out of the sum and the sign distributes (GramSpec).  The rest is reading:
  the reference at an index (GramReference), the body's arithmetic at an element (GramPayload), the block a grid point
  leaves (GramBlock), the host's norm arrays (GramHost), the blocks tiling the result (GramKernel), and the
  precondition giving real entries (GramFinite).  Both word-level and idealized kernel programs run, terminate and keep
  their arguments by the generated frame runs; the idealization rewrote nothing, so it is trivially sanctioned.
-/
import proofs.«148330_j65481071409271_2_alg».proof.Defs
import proofs.«148330_j65481071409271_2_alg».proof.Proof.Gen.Kernel
import proofs.«148330_j65481071409271_2_alg».proof.Proof.Gen.Kernel.Skeleton
import proofs.«148330_j65481071409271_2_alg».proof.Proof.Gen.Kernel.Loops
import proofs.«148330_j65481071409271_2_alg».proof.Proof.Gen.Kernel.Launch
import proofs.«148330_j65481071409271_2_alg».proof.Proof.Gen.Kernel.Points
import proofs.«148330_j65481071409271_2_alg».proof.Proof.Gen.Kernel.Frame
import proofs.«148330_j65481071409271_2_alg».proof.Proof.Gen.KernelIdeal
import proofs.«148330_j65481071409271_2_alg».proof.Proof.Gen.KernelIdeal.Skeleton
import proofs.«148330_j65481071409271_2_alg».proof.Proof.Gen.KernelIdeal.Loops
import proofs.«148330_j65481071409271_2_alg».proof.Proof.Gen.KernelIdeal.Launch
import proofs.«148330_j65481071409271_2_alg».proof.Proof.Gen.KernelIdeal.Points
import proofs.«148330_j65481071409271_2_alg».proof.Proof.Gen.KernelIdeal.Frame
import proofs.«148330_j65481071409271_2_alg».proof.Proof.Gen.ReferenceIdeal
import proofs.«148330_j65481071409271_2_alg».proof.Proof.Gen.Pre_finite_inputs
import proofs.«148330_j65481071409271_2_alg».proof.Proof.Gen.KernelIdeal.Value
import proofs.«148330_j65481071409271_2_alg».proof.Proof.Gen.ReferenceIdeal.Run
import proofs.«148330_j65481071409271_2_alg».proof.Proof.Gen.ReferenceIdeal.Read
import proofs.«148330_j65481071409271_2_alg».proof.Proof.GramSpec
import proofs.«148330_j65481071409271_2_alg».proof.Proof.GramReference
import proofs.«148330_j65481071409271_2_alg».proof.Proof.GramKernel
import proofs.«148330_j65481071409271_2_alg».proof.Proof.GramFinite
import Idealize.ShloMosaic.Adequacy
import Idealize.ShloMosaic.Init

noncomputable section

namespace Cert.Proof

open Idealize.ShloMosaic Idealize.ShloMosaic.TcCoe Idealize.SL.Sem

/-- The word-level kernel program runs, terminates and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the same array: the kernel's with the expanded Gram entry of its arguments, the
    reference's with the textbook one of the same arguments, equal entry by entry since every entry of the arguments
    is a real number. -/
theorem algebraic : Cert.algebraic_KernelIdeal_ReferenceIdeal := by
  intro m ρ m' ρ' hpre hagree
  refine ⟨fun c => Cert.Gram.Kernel.gramArr (m ((c : Thread Cert.KernelIdeal.nD Cert.KernelIdeal.τ).loc Cert.KernelIdeal.main_arg0))
      (m ((c : Thread Cert.KernelIdeal.nD Cert.KernelIdeal.τ).loc Cert.KernelIdeal.main_arg1)), Cert.Gram.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2]
  obtain ⟨hA, hB⟩ := Cert.Gram.Finite.all_real _ _ (hpre c)
  funext i
  rw [Cert.Gram.Reference.reference_apply]
  exact (Cert.Gram.expandedEntry_eq_textbookEntry _ _ (fun _ => hA _) (fun _ => hB _)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
